-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x512 .f32) (main_arg1 : FVec F S4096x512 .f32) (main_arg2 : FVec F S4096x512 .f32) (main_arg3 : FVec F S4096 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩
abbrev S1x4096 : Shape := ⟨2, ![1, 4096]⟩
abbrev S16384x512 : Shape := ⟨2, ![16384, 512]⟩
abbrev S1024x512 : Shape := ⟨2, ![1024, 512]⟩
abbrev S1x1024 : Shape := ⟨2, ![1, 1024]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 37
  | .vmem => 15
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S1x4096, .f32⟩
  | .hbm, ⟨32, _⟩ => ⟨S4096x512, .bf16⟩
  | .hbm, ⟨33, _⟩ => ⟨S4096x512, .bf16⟩
  | .hbm, ⟨34, _⟩ => ⟨S16384x512, .f32⟩
  | .hbm, ⟨35, _⟩ => ⟨S16384x512, .f32⟩
  | .hbm, ⟨36, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1, .f32⟩
  | .local _ .vmem, ⟨14, _⟩ => ⟨S1024x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4096 : S_.BroadcastsInDim S4096 (![] : Fin 0 → Fin S4096.rank)
  shapeCasts_S4096_S1x4096 : S4096.ShapeCasts S1x4096
  reducesTo_S4096x512_S4096_d1 : S4096x512.ReducesTo [1] S4096
  h_S_ : 0 < S_.numel
  bitsLt_bf16_f32 : FTy.bits .bf16 < FTy.bits .f32
  shapeCasts_S8x2048x512_S16384x512 : S8x2048x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  broadcasts_S1024x1_S1024x512 : S1024x1.Broadcasts S1024x512
  shapeCasts_S16384x512_S8x2048x512 : S16384x512.ShapeCasts S8x2048x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .bf16 = 32 ∨ (Rect.block (s := S4096x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .f32 = 32 ∨ (Rect.block (s := S16384x512) S1024x512.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩
abbrev S16384x512 : Shape := ⟨2, ![16384, 512]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S512x4096 : Shape := ⟨2, ![512, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S512x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S16384x4096, .f32⟩
  | .hbm, ⟨47, _⟩ => ⟨S1x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x4096, .f32⟩
  | .hbm, ⟨58, _⟩ => ⟨S16384x4096, .f32⟩
  | .hbm, ⟨59, _⟩ => ⟨S16384x512, .f32⟩
  | .hbm, ⟨60, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  shapeCasts_S8x2048x512_S16384x512 : S8x2048x512.ShapeCasts S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x512_S512x4096_1_0 : S4096x512.Transposes [1, 0] S512x4096
  bcast_S_S16384x4096 : S_.BroadcastsInDim S16384x4096 (![] : Fin 0 → Fin S16384x4096.rank)
  reducesTo_S16384x4096_S16384_d1 : S16384x4096.ReducesTo [1] S16384
  bcast_S_S16384x1 : S_.BroadcastsInDim S16384x1 (![] : Fin 0 → Fin S16384x1.rank)
  shapeCasts_S16384x512_S8x2048x512 : S16384x512.ShapeCasts S8x2048x512
  dot_S16384x512_S512x4096_S16384x4096_1_0_0_1_n_n_wf : DotDims.WF S16384x512 S512x4096 S16384x4096 [1] [0] [0] [1] [] []
  dot_S16384x4096_S4096x512_S16384x512_1_0_0_1_n_n_wf : DotDims.WF S16384x4096 S4096x512 S16384x512 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.Pieces.lean ====
/-
  What each control case of the kernel body leaves in the three carried scratch buffers — the accumulated
  weighted values, the accumulated weights, and the squared row norms — and in the output block, as pure
  functions of the blocks the body loads.  At a row tile's first key tile the accumulators are zeroed and the
  squared norms computed before the tile's contribution is added; at the other key tiles the contribution is
  added to what the previous grid point left; at the last key tile the output block is the accumulated values
  times the reciprocal of the accumulated weights plus 1e-8.
-/
import proofs.«153221_j18339510354285_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

theorem scratch_acc_first (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .f32) (x1 : Vec F S1024x512 .bf16) (x2 : Vec F S1x1024 .f32) (x3 : Vec F S1x1024 .f32) (x4 : Vec F S1024x512 .bf16)  :
    sout0_A_0 c i arg2 harg2 arg3 harg3 arg4 harg4 arg5 harg5 arg6 harg6 arg7 harg7 arg8 harg8 arg9 harg9 arg10 harg10 hc0 hc1 x0 x1 x2 x3 x4 = k0_pay1 (k0_pay6 x0 x1 (k0_pay5 x0) x2 x3) x4 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x512) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_sum_first (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .f32) (x1 : Vec F S1024x512 .bf16) (x2 : Vec F S1x1024 .f32) (x3 : Vec F S1x1024 .f32) (x4 : Vec F S1024x512 .bf16)  :
    sout0_A_1 c i arg2 harg2 arg3 harg3 arg4 harg4 arg5 harg5 arg6 harg6 arg7 harg7 arg8 harg8 arg9 harg9 arg10 harg10 hc0 hc1 x0 x1 x2 x3 x4 = k0_pay7 x0 x1 (k0_pay5 x0) x2 x3 k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_sqn_first (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .f32) (x1 : Vec F S1024x512 .bf16) (x2 : Vec F S1x1024 .f32) (x3 : Vec F S1x1024 .f32) (x4 : Vec F S1024x512 .bf16)  :
    sout0_A_2 c i arg2 harg2 arg3 harg3 arg4 harg4 arg5 harg5 arg6 harg6 arg7 harg7 arg8 harg8 arg9 harg9 arg10 harg10 hc0 hc1 x0 x1 x2 x3 x4 = k0_pay5 x0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_acc_mid (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .f32) (x1 : Vec F S1024x512 .bf16) (x2 : Vec F S1x1024 .f32) (x3 : Vec F S1x1024 .f32) (x4 : Vec F S1024x512 .bf16) (xs0 : Vec F S1024x512 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay1 (k0_pay6 x0 x1 xs2 x2 x3) x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_cons_unit_zero (S := S1024x512) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_sum_mid (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .f32) (x1 : Vec F S1024x512 .bf16) (x2 : Vec F S1x1024 .f32) (x3 : Vec F S1x1024 .f32) (x4 : Vec F S1024x512 .bf16) (xs0 : Vec F S1024x512 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay7 x0 x1 xs2 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_cons_unit_zero (S := S1024x1) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_acc_last (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .f32) (x1 : Vec F S1024x512 .bf16) (x2 : Vec F S1x1024 .f32) (x3 : Vec F S1x1024 .f32) (x4 : Vec F S1024x512 .bf16) (xs0 : Vec F S1024x512 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay1 (k0_pay6 x0 x1 xs2 x2 x3) x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S1024x512) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem scratch_sum_last (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .f32) (x1 : Vec F S1024x512 .bf16) (x2 : Vec F S1x1024 .f32) (x3 : Vec F S1x1024 .f32) (x4 : Vec F S1024x512 .bf16) (xs0 : Vec F S1024x512 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay7 x0 x1 xs2 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S1024x1) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

theorem out_last (c : Dev nD) (i : grid0.Coords) (arg2 : Memref sig .tc .vmem S1024x512 .f32) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .f32) (x1 : Vec F S1024x512 .bf16) (x2 : Vec F S1x1024 .f32) (x3 : Vec F S1x1024 .f32) (x4 : Vec F S1024x512 .bf16) (xs0 : Vec F S1024x512 .f32) (xs1 : Vec F S1024x1 .f32) (xs2 : Vec F S1024x1 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay2 (k0_pay7 x0 x1 xs2 x2 x3 xs1) (k0_pay1 (k0_pay6 x0 x1 xs2 x2 x3) x4 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_cons_unit_zero (S := S1024x512) hz]
  simp only [View.readCov_unit_zero (S := S1024x1) _ hz, View.readCov_unit_zero (S := S1024x512) _ hz, View.readAt_eq_ld, harg2.read_unread, harg3.read_unread, harg4.read_unread, harg5.read_unread, harg6.read_unread, harg8.read_unread, harg9.read_unread, harg10.read_unread, View.ld_unit_zero (S := S1024x512) hz, View.ld_unit_zero (S := S1x1024) hz, View.ld_unit_zero (S := S1024x1) hz]

end Cert.KernelIdeal.Pieces
end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.Payload.lean ====
/-
  The kernel body's arithmetic read entry by entry at the ideal values.  For a query block `x` (1024 × 512), a key
  block `k` (1024 × 512), the keys' squared norms and per-key factors (rows of 1024) and the carried columns:
  the squared row norms are row sums of squares; the weight of row `p` for key `j` is
  `exp(√(max(‖x_p‖² + ‖k_j‖² − 2⟨x_p, k_j⟩, 0)) · s_j)`; the weight total and the weighted values grow by the tile's
  row sums and by the tile's weights times its values; the output is the accumulated values times the reciprocal
  of the accumulated weights plus 1e-8.  Layout steps (a column broadcast along rows, a vector turned into a
  column) are read at explicit coordinates.
-/
import proofs.«153221_j18339510354285_2_alg».proof.Proof.Gen.KernelIdeal.Skeleton
import proofs.«153221_j18339510354285_2_alg».proof.Proof.LibMatSum
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- A column `[a, 1]` broadcast along rows to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector's entry `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem rows_lhs_0 (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem rows_lhs_1 (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem rows_rhs_0 (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rows_rhs_1 (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of a `1024 × 512` block with the transpose of another, into a zero accumulator, read at `(p, j)`:
    the inner product of row `p` of the first with row `j` of the second. -/
theorem matmul_rows_entry (l r : FVec Ideal S1024x512 .bf16) (p j : Fin 1024) :
    matmul dot_S1024x512_S1024x512_S1024x1024_1_1_0_0_n_n none l r (constant S1024x1024 .f32 0x00000000#32) (ix2 p j)
      = ∑ d : Fin 512, l (ix2 p d) * r (ix2 j d) := by
  show FloatOps.matmul _ none l r (constant _ .f32 0x00000000#32) (ix2 p j) = _
  rw [Ideal.matmul_constant_zero_apply, ← Equiv.sum_comp (contrEquiv1 dot_S1024x512_S1024x512_S1024x1024_1_1_0_0_n_n 512 rfl rfl).symm]
  refine Finset.sum_congr rfl fun d _ => ?_
  have hk := contrEquiv1_symm_val dot_S1024x512_S1024x512_S1024x1024_1_1_0_0_n_n 512 rfl rfl d
  have el : dot_S1024x512_S1024x512_S1024x1024_1_1_0_0_n_n.lhsIdx (ix2 p j) ((contrEquiv1 dot_S1024x512_S1024x512_S1024x1024_1_1_0_0_n_n 512 rfl rfl).symm d) = ix2 p d := funext fun a => Fin.ext (by
    match a with
    | ⟨0, _⟩ => exact rows_lhs_0 _ _
    | ⟨1, _⟩ => exact (rows_lhs_1 _ _).trans hk)
  have er : dot_S1024x512_S1024x512_S1024x1024_1_1_0_0_n_n.rhsIdx (ix2 p j) ((contrEquiv1 dot_S1024x512_S1024x512_S1024x1024_1_1_0_0_n_n 512 rfl rfl).symm d) = ix2 j d := funext fun a => Fin.ext (by
    match a with
    | ⟨0, _⟩ => exact rows_rhs_0 _ _
    | ⟨1, _⟩ => exact (rows_rhs_1 _ _).trans hk)
  rw [el, er]

/-- The lane sum of a `1024 × n` block over its columns, as a column, read at row `p`. -/
theorem rowsum512_apply (v : FVec Ideal S1024x512 .f32) (hacc : (0x00000000#32 : BitVec 32) = 0x00000000#32) (p : Fin 1024) :
    multiReduction .add [1] S1024 v 0x00000000#32 reduces_S1024x512_S1024 (.inl rfl) hacc (ix1 p) = ∑ d : Fin 512, v (ix2 p d) := by
  refine (Ideal.multiReduction_add_single v 0x00000000#32 reduces_S1024x512_S1024 (.inl rfl) hacc (ix1 p)).trans ?_
  refine Finset.sum_congr rfl fun d _ => ?_
  exact congrArg v (funext fun a => Fin.ext (by match a with | ⟨0, _⟩ => rfl | ⟨1, _⟩ => rfl))

theorem rowsum1024_apply (v : FVec Ideal S1024x1024 .f32) (hacc : (0x00000000#32 : BitVec 32) = 0x00000000#32) (p : Fin 1024) :
    multiReduction .add [1] S1024 v 0x00000000#32 reduces_S1024x1024_S1024 (.inl rfl) hacc (ix1 p) = ∑ j : Fin 1024, v (ix2 p j) := by
  refine (Ideal.multiReduction_add_single v 0x00000000#32 reduces_S1024x1024_S1024 (.inl rfl) hacc (ix1 p)).trans ?_
  refine Finset.sum_congr rfl fun d _ => ?_
  exact congrArg v (funext fun a => Fin.ext (by match a with | ⟨0, _⟩ => rfl | ⟨1, _⟩ => rfl))

theorem exp_apply {s : Shape} {φ : FTy} (v : FVec Ideal s φ) (i : s.Idx) : exp v i = Ideal.exp (v i) := rfl
theorem sqrt_apply {s : Shape} {φ : FTy} (v : FVec Ideal s φ) (i : s.Idx) : sqrt v i = Ideal.sqrt (v i) := rfl

/-- The zeroed accumulators. -/
theorem pay3_apply (i : S1024x512.Idx) : k0_pay3 (F := Ideal) i = 0 := by
  unfold k0_pay3
  rw [shapeCast_self]
  exact Ideal.ofBits_zero_f32

theorem pay4_apply (i : S1024x1.Idx) : k0_pay4 (F := Ideal) i = 0 := by
  unfold k0_pay4
  rw [shapeCast_self]
  exact Ideal.ofBits_zero_f32

/-- The squared norm of each row of the query block, kept as a column. -/
theorem pay5_apply (x0 : Vec Ideal S1024x512 .f32) (p : Fin 1024) (u : Fin 1) :
    k0_pay5 x0 (ix2 p u) = ∑ d : Fin 512, x0 (ix2 p d) * x0 (ix2 p d) := by
  unfold k0_pay5
  simp only [shapeCast_self]
  refine (shapeCast_a_a1_apply _ _ p u).trans ?_
  refine (rowsum512_apply _ rfl p).trans ?_
  rfl

/-- The weight of query row `p` for key `j` of the tile: `exp(√(max(‖x‖² + ‖k‖² − 2⟨x, k⟩, 0)) · s)`, with the squared
    query norm `v7`, the squared key norms `x2` and the per-key factors `x3` as they are handed in. -/
theorem pay6_apply (x0 : Vec Ideal S1024x512 .f32) (x1 : Vec Ideal S1024x512 .bf16) (v7 : Vec Ideal S1024x1 .f32)
    (x2 x3 : Vec Ideal S1x1024 .f32) (p j : Fin 1024) :
    k0_pay6 x0 x1 v7 x2 x3 (ix2 p j)
      = Ideal.exp (Ideal.sqrt (max (v7 (ix2 p (0 : Fin 1)) + x2 (ix2 (0 : Fin 1) j)
          - Ideal.ofBits .f32 0x40000000#32 * ∑ d : Fin 512, x0 (ix2 p d) * x1 (ix2 j d)) 0) * x3 (ix2 (0 : Fin 1) j)) := by
  unfold k0_pay6
  simp only [shapeCast_self, exp_apply, sqrt_apply, mulf_apply, maximumf_apply, subf_apply, addf_apply, broadcast_apply]
  rw [broadcastTo_a1_ab_apply, broadcastTo_1b_ab_apply, broadcastTo_1b_ab_apply, matmul_rows_entry]
  exact congrArg (fun z => Ideal.exp (Ideal.sqrt (max _ z) * _)) Ideal.ofBits_zero_f32

/-- The accumulated weights: what was there plus the tile's row sums. -/
theorem pay7_apply (x0 : Vec Ideal S1024x512 .f32) (x1 : Vec Ideal S1024x512 .bf16) (v7 : Vec Ideal S1024x1 .f32)
    (x2 x3 : Vec Ideal S1x1024 .f32) (v26 : Vec Ideal S1024x1 .f32) (p : Fin 1024) (u : Fin 1) :
    k0_pay7 x0 x1 v7 x2 x3 v26 (ix2 p u) = v26 (ix2 p u) + ∑ j : Fin 1024, k0_pay6 x0 x1 v7 x2 x3 (ix2 p j) := by
  unfold k0_pay7
  simp only [shapeCast_self]
  refine congrArg (v26 (ix2 p u) + ·) ?_
  refine (shapeCast_a_a1_apply _ _ p u).trans ?_
  exact rowsum1024_apply _ rfl p

/-- The accumulated weighted values: what was there plus the tile's weights times the tile's values. -/
theorem pay1_apply (v25 : FVec Ideal S1024x1024 .f32) (v33 : Vec Ideal S1024x512 .bf16) (v36 : Vec Ideal S1024x512 .f32)
    (p : Fin 1024) (q : Fin 512) :
    k0_pay1 v25 v33 v36 (ix2 p q) = v36 (ix2 p q) + ∑ j : Fin 1024, v25 (ix2 p j) * v33 (ix2 j q) := by
  unfold k0_pay1
  simp only [shapeCast_self]
  refine congrArg (v36 (ix2 p q) + ·) ?_
  exact MatSum.matmul_zero_entry _ none _ _ p q

/-- The output block: the accumulated values times the reciprocal of the accumulated weights plus 1e-8. -/
theorem pay2_apply (v45 : Vec Ideal S1024x1 .f32) (v50 : Vec Ideal S1024x512 .f32) (p : Fin 1024) (q : Fin 512) :
    k0_pay2 v45 v50 (ix2 p q)
      = v50 (ix2 p q) * Ideal.div (Ideal.ofBits .f32 0x3F800000#32) (v45 (ix2 p (0 : Fin 1)) + Ideal.ofBits .f32 0x322BCC77#32) := by
  unfold k0_pay2
  show v50 (ix2 p q) * broadcastTo S1024x512 _ _ (ix2 p q) = _
  rw [broadcastTo_a1_ab_apply]
  rfl

end Cert.KernelIdeal.Payload
end
-- ==== Proof.Spec.lean ====
/-
  The mathematics of the two programs, written once over the extended reals.

  Rows `r` of the flattened queries `X` (16384 × 512) attend to the 4096 keys `P` with values `V`
  and per-key temperatures `T`.  With `dist r n = √(max(‖X r‖² + ‖P n‖² − 2·⟨X r, P n⟩, 0))` and
  `et n = (|T n| + 0.1) · scale`, one program forms the weight as `exp(dist · (−1 / et))`, accumulates the
  weights and the weighted values tile by tile over four tiles of 1024 keys, and divides once at the end
  (`outK`); the other forms the weight as `exp((−dist) / et)`, normalises every weight by the row's total
  and then contracts with the values (`outR`).  The float literals are kept as the words the programs spell.
-/
import Idealize.ShloMosaic.PureOps.Ideal
import Idealize.ShloMosaic.PureOps.Ideal.Laws
import Idealize.ShloMosaic.Lib.ValueIdx

noncomputable section

namespace Cert.Attn

open Idealize.ShloMosaic

/-- The literals of the two programs (f32 words): 0.05, 0.95, 1, −0.02, 0.1, −1, 2 and 1e-8. -/
abbrev c005 : EReal := Ideal.ofBits .f32 0x3D4CCCCD#32
abbrev c095 : EReal := Ideal.ofBits .f32 0x3F733333#32
abbrev c1 : EReal := Ideal.ofBits .f32 0x3F800000#32
abbrev cm002 : EReal := Ideal.ofBits .f32 0xBCA3D70A#32
abbrev c01 : EReal := Ideal.ofBits .f32 0x3DCCCCCD#32
abbrev cm1 : EReal := Ideal.ofBits .f32 0xBF800000#32
abbrev c2 : EReal := Ideal.ofBits .f32 0x40000000#32
abbrev eps : EReal := Ideal.ofBits .f32 0x322BCC77#32

variable (X : Fin 16384 → Fin 512 → EReal) (P V : Fin 4096 → Fin 512 → EReal) (T : Fin 4096 → EReal)

/-- The attention scale of a slot of age zero: `0.05 + 0.95 · (1 − exp(−0.02 · 0))`. -/
def scale : EReal := c005 + c095 * (c1 - Ideal.exp (cm002 * 0))

/-- The effective temperature of key `n`: `(|T n| + 0.1) · scale`. -/
def et (n : Fin 4096) : EReal := (max (T n) (-(T n)) + c01) * scale

/-- The squared norm of query row `r`. -/
def sqn (r : Fin 16384) : EReal := ∑ d : Fin 512, X r d * X r d

/-- The squared norm of key `n`. -/
def sqp (n : Fin 4096) : EReal := ∑ d : Fin 512, P n d * P n d

/-- The inner product of query row `r` with key `n`. -/
def dot (r : Fin 16384) (n : Fin 4096) : EReal := ∑ d : Fin 512, X r d * P n d

/-- The Euclidean distance from row `r` to key `n`, by the expanded square clamped at zero. -/
def dist (r : Fin 16384) (n : Fin 4096) : EReal :=
  Ideal.sqrt (max (sqn X r + sqp P n - c2 * dot X P r n) 0)

/-- The weight with the reciprocal temperature taken first: `exp(dist · (−1 / et))`. -/
def wK (r : Fin 16384) (n : Fin 4096) : EReal := Ideal.exp (dist X P r n * Ideal.div cm1 (et T n))

/-- The weight with the quotient taken last: `exp((−dist) / et)`. -/
def wR (r : Fin 16384) (n : Fin 4096) : EReal := Ideal.exp (Ideal.div (-(dist X P r n)) (et T n))

/-- Key `j` of tile `k` (tiles of 1024 keys; `k < 4` is the only use). -/
def tile (k : ℕ) (j : Fin 1024) : Fin 4096 := ⟨(1024 * k + j.val) % 4096, Nat.mod_lt _ (by norm_num)⟩

/-- Row `p` of row tile `i` of the flattened queries (tiles of 1024 rows; `i < 16` is the only use). -/
def row (i : ℕ) (p : Fin 1024) : Fin 16384 := ⟨(1024 * i + p.val) % 16384, Nat.mod_lt _ (by norm_num)⟩

/-- The running total of row `r`'s weights after tiles `0 … k`, tile sums added in tile order. -/
def sumK (r : Fin 16384) : ℕ → EReal
  | 0 => ∑ j : Fin 1024, wK X P T r (tile 0 j)
  | k + 1 => sumK r k + ∑ j : Fin 1024, wK X P T r (tile (k + 1) j)

/-- The running weighted sum of the values, at row `r` and feature `q`, after tiles `0 … k`. -/
def accK (r : Fin 16384) (q : Fin 512) : ℕ → EReal
  | 0 => ∑ j : Fin 1024, wK X P T r (tile 0 j) * V (tile 0 j) q
  | k + 1 => accK r q k + ∑ j : Fin 1024, wK X P T r (tile (k + 1) j) * V (tile (k + 1) j) q

/-- Accumulate over the four tiles, then multiply once by the reciprocal of the total plus 1e-8. -/
def outK (r : Fin 16384) (q : Fin 512) : EReal :=
  accK X P V T r q 3 * Ideal.div c1 (sumK X P T r 3 + eps)

/-- Normalise every weight by the row's total plus 1e-8, then contract with the values. -/
def outR (r : Fin 16384) (q : Fin 512) : EReal :=
  ∑ n : Fin 4096, Ideal.div (wR X P T r n) ((∑ n' : Fin 4096, wR X P T r n') + eps) * V n q

end Cert.Attn

end
-- ==== Proof.Tiles.lean ====
/-
  One key tile's step of the accumulation, entry by entry, over arbitrary blocks: if row `p` of the query block
  is row `r` of the queries and the key-side blocks are tile `k` of the keys, of their squared norms, of their
  negated reciprocal temperatures and of the values, then the body's weights are the weights of row `r` for the
  keys of tile `k`, the first tile leaves the tile's sums, a later tile adds its sums to what it found, and after
  the fourth tile the output entry is the accumulated values times the reciprocal of the accumulated weights
  plus 1e-8.
-/
import proofs.«153221_j18339510354285_2_alg».proof.Proof.Payload
import proofs.«153221_j18339510354285_2_alg».proof.Proof.Spec

noncomputable section

namespace Cert.KernelIdeal.Tiles

open Cert.KernelIdeal Cert.KernelIdeal.Gen Cert.KernelIdeal.Payload Idealize.ShloMosaic Idealize.ShloMosaic.ValueIdx Cert.Attn

variable (X : Fin 16384 → Fin 512 → EReal) (P V : Fin 4096 → Fin 512 → EReal) (T : Fin 4096 → EReal)
variable (r : Fin 16384) (p : Fin 1024)
variable (b0 : Vec Ideal S1024x512 .f32) (b1 : Vec Ideal S1024x512 .bf16) (b2 b3 : Vec Ideal S1x1024 .f32)
  (b4 : Vec Ideal S1024x512 .bf16)

/-- With row `p` of the query block being row `r` of the queries and the key-side blocks being tile `k` of the
    keys, their squared norms and their reciprocal temperatures, and the carried column holding the squared
    norm of row `r`: the body's weight at `(p, j)` is the weight of row `r` for key `j` of tile `k`. -/
theorem weight_entry (k : ℕ) (v7 : Vec Ideal S1024x1 .f32)
    (h0 : ∀ d, b0 (ix2 p d) = X r d) (h1 : ∀ j d, b1 (ix2 j d) = P (tile k j) d)
    (h2 : ∀ j, b2 (ix2 (0 : Fin 1) j) = sqp P (tile k j))
    (h3 : ∀ j, b3 (ix2 (0 : Fin 1) j) = Ideal.div cm1 (et T (tile k j)))
    (h7 : v7 (ix2 p (0 : Fin 1)) = sqn X r) (j : Fin 1024) :
    k0_pay6 b0 b1 v7 b2 b3 (ix2 p j) = wK X P T r (tile k j) := by
  rw [pay6_apply, h7, h2 j, h3 j]
  unfold wK Attn.dist Attn.dot
  simp only [h0, h1]

/-- The squared norm column, from the query block. -/
theorem sqn_entry (h0 : ∀ d, b0 (ix2 p d) = X r d) (u : Fin 1) : k0_pay5 b0 (ix2 p u) = sqn X r := by
  rw [pay5_apply]
  unfold sqn
  simp only [h0]

/-- A row tile's first key tile: the accumulators start from zero. -/
theorem first_tile
    (h0 : ∀ d, b0 (ix2 p d) = X r d) (h1 : ∀ j d, b1 (ix2 j d) = P (tile 0 j) d)
    (h2 : ∀ j, b2 (ix2 (0 : Fin 1) j) = sqp P (tile 0 j))
    (h3 : ∀ j, b3 (ix2 (0 : Fin 1) j) = Ideal.div cm1 (et T (tile 0 j)))
    (h4 : ∀ j q, b4 (ix2 j q) = V (tile 0 j) q) :
    (∀ q : Fin 512, k0_pay1 (k0_pay6 b0 b1 (k0_pay5 b0) b2 b3) b4 (k0_pay3 (F := Ideal)) (ix2 p q) = accK X P V T r q 0)
    ∧ (∀ u : Fin 1, k0_pay7 b0 b1 (k0_pay5 b0) b2 b3 (k0_pay4 (F := Ideal)) (ix2 p u) = sumK X P T r 0)
    ∧ (∀ u : Fin 1, k0_pay5 b0 (ix2 p u) = sqn X r) := by
  have hw := weight_entry X P T r p b0 b1 b2 b3 0 (k0_pay5 b0) h0 h1 h2 h3 (sqn_entry X r p b0 h0 0)
  refine ⟨fun q => ?_, fun u => ?_, fun u => sqn_entry X r p b0 h0 u⟩
  · rw [pay1_apply, pay3_apply, zero_add]
    simp only [hw, h4]
    rfl
  · rw [pay7_apply, pay4_apply, zero_add]
    simp only [hw]
    rfl

/-- A later key tile: the accumulators grow by the tile's contribution; the squared norms are kept. -/
theorem next_tile (k : ℕ) (xs0 : Vec Ideal S1024x512 .f32) (xs1 xs2 : Vec Ideal S1024x1 .f32)
    (h0 : ∀ d, b0 (ix2 p d) = X r d) (h1 : ∀ j d, b1 (ix2 j d) = P (tile (k + 1) j) d)
    (h2 : ∀ j, b2 (ix2 (0 : Fin 1) j) = sqp P (tile (k + 1) j))
    (h3 : ∀ j, b3 (ix2 (0 : Fin 1) j) = Ideal.div cm1 (et T (tile (k + 1) j)))
    (h4 : ∀ j q, b4 (ix2 j q) = V (tile (k + 1) j) q)
    (ha : ∀ q : Fin 512, xs0 (ix2 p q) = accK X P V T r q k)
    (hs : ∀ u : Fin 1, xs1 (ix2 p u) = sumK X P T r k)
    (hn : ∀ u : Fin 1, xs2 (ix2 p u) = sqn X r) :
    (∀ q : Fin 512, k0_pay1 (k0_pay6 b0 b1 xs2 b2 b3) b4 xs0 (ix2 p q) = accK X P V T r q (k + 1))
    ∧ (∀ u : Fin 1, k0_pay7 b0 b1 xs2 b2 b3 xs1 (ix2 p u) = sumK X P T r (k + 1)) := by
  have hw := weight_entry X P T r p b0 b1 b2 b3 (k + 1) xs2 h0 h1 h2 h3 (hn 0)
  refine ⟨fun q => ?_, fun u => ?_⟩
  · rw [pay1_apply, ha q]
    simp only [hw, h4]
    rfl
  · rw [pay7_apply, hs u]
    simp only [hw]
    rfl

/-- The output entry after the fourth key tile. -/
theorem out_entry (v45 : Vec Ideal S1024x1 .f32) (v50 : Vec Ideal S1024x512 .f32)
    (ha : ∀ q : Fin 512, v50 (ix2 p q) = accK X P V T r q 3) (hs : ∀ u : Fin 1, v45 (ix2 p u) = sumK X P T r 3)
    (q : Fin 512) : k0_pay2 v45 v50 (ix2 p q) = outK X P V T r q := by
  rw [pay2_apply, ha q, hs 0]
  rfl

end Cert.KernelIdeal.Tiles
end
-- ==== Proof.HostPre.lean ====
/-
  What the kernel region's input arrays hold when the region is entered: the host operations before it
  reshape the queries, pass the keys and the values through a change of format (the identity on the extended reals),
  form the keys' squared norms and the reciprocal temperatures `−1 / ((|T n| + 0.1) · scale)`.
-/
import proofs.«153221_j18339510354285_2_alg».proof.Proof.Gen.KernelIdeal.Frame
import proofs.«153221_j18339510354285_2_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostPre

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (c : Dev nD)

/-- The host's sum over the feature axis of a keys-by-features array, at key `n`: the initial value plus the
    sum over the features. -/
theorem reduce_rows (y : S4096x512.Idx → EReal) (init : S_.Idx → EReal) (n : Fin 4096) :
    Host.reduceAdd (F := Ideal) (φ := .f32) y init reducesTo_S4096x512_S4096_d1 h_S_ (ix1 n)
      = init (Shape.Idx.first h_S_) + ∑ k : Fin 512, y (ix2 n k) := by
  simp only [Host.reduceAdd, Ideal.hostReduceAdd_def]
  rw [Ideal.hostReduceAdd_single reducesTo_S4096x512_S4096_d1 (by decide)]
  refine congrArg (_ + ·) (Finset.sum_congr rfl fun k _ => ?_)
  exact congrArg y (funext fun a => Fin.ext (by match a with | ⟨0, _⟩ => rfl | ⟨1, _⟩ => rfl))

/-- The queries enter the region as the reshape of the first argument to 16384 × 512. -/
theorem q_arr : (V m c main_v22 : S16384x512.Idx → EReal)
    = shapeCast S16384x512 (m ((c.tc : Thread nD τ).loc main_arg0)) shapeCasts_S8x2048x512_S16384x512 := by
  show StableHlo.after hostOps0 (fun b => m (c, b)) (Proc.devRef .tc main_v22) = _
  after_results
  rfl

/-- The keys enter the region unchanged: the change of format is the identity on the extended reals. -/
theorem k_arr (n : Fin 4096) (d : Fin 512) :
    V m c main_v20 (ix2 n d) = m ((c.tc : Thread nD τ).loc main_arg1) (ix2 n d) := by
  show StableHlo.after hostOps0 (fun b => m (c, b)) (Proc.devRef .tc main_v20) (ix2 n d) = _
  after_results
  rfl

/-- The values enter the region unchanged, likewise. -/
theorem v_arr (n : Fin 4096) (d : Fin 512) :
    V m c main_v21 (ix2 n d) = m ((c.tc : Thread nD τ).loc main_arg2) (ix2 n d) := by
  show StableHlo.after hostOps0 (fun b => m (c, b)) (Proc.devRef .tc main_v21) (ix2 n d) = _
  after_results
  rfl

/-- The row of squared key norms: at key `n` the sum of the squares of that key's features. -/
theorem sqp_arr (n : Fin 4096) : V m c main_v19 (ix2 (0 : Fin 1) n)
    = Cert.Attn.sqp (fun n d => m ((c.tc : Thread nD τ).loc main_arg1) (ix2 n d)) n := by
  show StableHlo.after hostOps0 (fun b => m (c, b)) (Proc.devRef .tc main_v19) (ix2 (0 : Fin 1) n) = _
  after_results
  show shapeCast S1x4096 _ shapeCasts_S4096_S1x4096 (ix2 (0 : Fin 1) n) = _
  rw [shapeCast_a_1a_apply, reduce_rows]
  show Ideal.ofBits .f32 0x00000000#32 + _ = _
  rw [Ideal.ofBits_zero_f32, zero_add]
  rfl

/-- The row of reciprocal temperatures: at key `n`, `−1` divided by `(|T n| + 0.1) · scale`. -/
theorem ninv_arr (n : Fin 4096) : V m c main_v16 (ix2 (0 : Fin 1) n)
    = Ideal.div Cert.Attn.cm1 (Cert.Attn.et (fun n => m ((c.tc : Thread nD τ).loc main_arg3) (ix1 n)) n) := by
  show StableHlo.after hostOps0 (fun b => m (c, b)) (Proc.devRef .tc main_v16) (ix2 (0 : Fin 1) n) = _
  after_results
  show shapeCast S1x4096 _ shapeCasts_S4096_S1x4096 (ix2 (0 : Fin 1) n) = _
  rw [shapeCast_a_1a_apply]
  show Ideal.div Cert.Attn.cm1
      ((@max EReal _ (m ((c.tc : Thread nD τ).loc main_arg3) (ix1 n)) (@Neg.neg EReal _ (m ((c.tc : Thread nD τ).loc main_arg3) (ix1 n))) + Cert.Attn.c01)
        * (Cert.Attn.c005 + Cert.Attn.c095
          * (Cert.Attn.c1 - Ideal.exp (Cert.Attn.cm002 * Ideal.ofBits .f32 0x00000000#32)))) = _
  rw [Ideal.ofBits_zero_f32]
  rfl

end Cert.KernelIdeal.HostPre

end
-- ==== Proof.Blocks.lean ====
/-
  The windows' blocks, read off their arrays.  The grid of 16 × 4 points is linearised as `t = 4 i + k`:
  point `t` works on row tile `i = t / 4` of the queries and key tile `k = t % 4` of the keys, values,
  squared norms and reciprocal temperatures.  A block's coordinate in its array is always
  (block index) × (block size) + (coordinate inside the block).
-/
import proofs.«153221_j18339510354285_2_alg».proof.Proof.Gen.KernelIdeal.Frame
import proofs.«153221_j18339510354285_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx Cert.Attn

variable {F : FTy → Type} [FloatOps F] (m : (ℓ : Loc nD τ sig) → Buf (Elt F) ℓ) (c : Dev nD)

/-! ### The index maps over the grid: row tile `t / 4`, key tile `t % 4` -/

theorem idx_q : ∀ t : Fin cfg0.N, win0_0.index t 0 = t.val / 4 ∧ win0_0.index t 1 = 0 :=
  (by decide +kernel : ∀ t : Fin grid0.N, _)

theorem blk_q (t : Fin cfg0.N) (p : Fin 1024) (d : Fin 512) :
    iblk m c 0 t (ix2 p d) = V m c main_v22 (ix2 (row (t.val / 4) p) d) := by
  have hN : cfg0.N = 64 := N_0
  have ht := t.isLt
  unfold iblk
  rw [View.read_apply]
  show V m c main_v22 _ = V m c main_v22 _
  congr 1
  funext a
  apply Fin.ext
  match a with
  | ⟨0, _⟩ =>
    show win0_0.index t 0 * 1024 + 1 * p.val = (1024 * (t.val / 4) + p.val) % 16384
    rw [(idx_q t).1]; have := p.isLt; omega
  | ⟨1, _⟩ =>
    show win0_0.index t 1 * 512 + 1 * d.val = d.val
    rw [(idx_q t).2]; omega

theorem idx_k : ∀ t : Fin cfg0.N, win0_1.index t 0 = t.val % 4 ∧ win0_1.index t 1 = 0 :=
  (by decide +kernel : ∀ t : Fin grid0.N, _)

theorem idx_sqp : ∀ t : Fin cfg0.N, win0_2.index t 0 = 0 ∧ win0_2.index t 1 = t.val % 4 :=
  (by decide +kernel : ∀ t : Fin grid0.N, _)

theorem idx_ninv : ∀ t : Fin cfg0.N, win0_3.index t 0 = 0 ∧ win0_3.index t 1 = t.val % 4 :=
  (by decide +kernel : ∀ t : Fin grid0.N, _)

theorem idx_v : ∀ t : Fin cfg0.N, win0_4.index t 0 = t.val % 4 ∧ win0_4.index t 1 = 0 :=
  (by decide +kernel : ∀ t : Fin grid0.N, _)

theorem blk_k (t : Fin cfg0.N) (j : Fin 1024) (d : Fin 512) :
    iblk m c 1 t (ix2 j d) = V m c main_v20 (ix2 (tile (t.val % 4) j) d) := by
  unfold iblk
  rw [View.read_apply]
  show V m c main_v20 _ = V m c main_v20 _
  congr 1
  funext a
  apply Fin.ext
  match a with
  | ⟨0, _⟩ =>
    show win0_1.index t 0 * 1024 + 1 * j.val = (1024 * (t.val % 4) + j.val) % 4096
    rw [(idx_k t).1]; have := j.isLt; omega
  | ⟨1, _⟩ =>
    show win0_1.index t 1 * 512 + 1 * d.val = d.val
    rw [(idx_k t).2]; omega

theorem blk_sqp (t : Fin cfg0.N) (j : Fin 1024) :
    iblk m c 2 t (ix2 (0 : Fin 1) j) = V m c main_v19 (ix2 (0 : Fin 1) (tile (t.val % 4) j)) := by
  unfold iblk
  rw [View.read_apply]
  show V m c main_v19 _ = V m c main_v19 _
  congr 1
  funext a
  apply Fin.ext
  match a with
  | ⟨0, _⟩ =>
    show win0_2.index t 0 * 1 + 1 * (0 : Fin 1).val = (0 : Fin 1).val
    rw [(idx_sqp t).1]; first | rfl | omega | simp
  | ⟨1, _⟩ =>
    show win0_2.index t 1 * 1024 + 1 * j.val = (1024 * (t.val % 4) + j.val) % 4096
    rw [(idx_sqp t).2]; have := j.isLt; omega

theorem blk_ninv (t : Fin cfg0.N) (j : Fin 1024) :
    iblk m c 3 t (ix2 (0 : Fin 1) j) = V m c main_v16 (ix2 (0 : Fin 1) (tile (t.val % 4) j)) := by
  unfold iblk
  rw [View.read_apply]
  show V m c main_v16 _ = V m c main_v16 _
  congr 1
  funext a
  apply Fin.ext
  match a with
  | ⟨0, _⟩ =>
    show win0_3.index t 0 * 1 + 1 * (0 : Fin 1).val = (0 : Fin 1).val
    rw [(idx_ninv t).1]; first | rfl | omega | simp
  | ⟨1, _⟩ =>
    show win0_3.index t 1 * 1024 + 1 * j.val = (1024 * (t.val % 4) + j.val) % 4096
    rw [(idx_ninv t).2]; have := j.isLt; omega

theorem blk_v (t : Fin cfg0.N) (j : Fin 1024) (q : Fin 512) :
    iblk m c 4 t (ix2 j q) = V m c main_v21 (ix2 (tile (t.val % 4) j) q) := by
  unfold iblk
  rw [View.read_apply]
  show V m c main_v21 _ = V m c main_v21 _
  congr 1
  funext a
  apply Fin.ext
  match a with
  | ⟨0, _⟩ =>
    show win0_4.index t 0 * 1024 + 1 * j.val = (1024 * (t.val % 4) + j.val) % 4096
    rw [(idx_v t).1]; have := j.isLt; omega
  | ⟨1, _⟩ =>
    show win0_4.index t 1 * 512 + 1 * q.val = q.val
    rw [(idx_v t).2]; omega

end Cert.KernelIdeal.Blocks

end
-- ==== Proof.Accum.lean ====
/-
  The accumulation across the grid.  Grid point `t` works on row tile `t / 4` and key tile `t mod 4`.  By induction on
  the point: after point `t` the carried scratch holds, at row `p` of the tile, the weighted values and the weights
  summed over key tiles `0 … t mod 4` (in tile order) for query row `1024·(t/4) + p`, and that row's squared norm;
  so the output block written at a row tile's last key tile is `outK` at those rows.
-/
import proofs.«153221_j18339510354285_2_alg».proof.Proof.Pieces
import proofs.«153221_j18339510354285_2_alg».proof.Proof.Tiles
import proofs.«153221_j18339510354285_2_alg».proof.Proof.HostPre
import proofs.«153221_j18339510354285_2_alg».proof.Proof.Blocks

noncomputable section

namespace Cert.KernelIdeal.Accum

open Cert.KernelIdeal Cert.KernelIdeal.Gen Cert.KernelIdeal.Pieces Cert.KernelIdeal.Tiles
open Idealize.ShloMosaic Idealize.ShloMosaic.TcCoe Idealize.SL.Sem Idealize.ShloMosaic.ValueIdx Cert.Attn

variable (m : (ℓ : Loc nD τ sig) → Buf (Elt Ideal) ℓ) (c : Dev nD)

/-- The flattened queries as the region finds them, and the keys, values and temperatures as launched. -/
abbrev Xq : Fin 16384 → Fin 512 → EReal := fun r d => V m c main_v22 (ix2 r d)
abbrev Pk : Fin 4096 → Fin 512 → EReal := fun n d => m ((c.tc : Thread nD τ).loc main_arg1) (ix2 n d)
abbrev Vv : Fin 4096 → Fin 512 → EReal := fun n d => m ((c.tc : Thread nD τ).loc main_arg2) (ix2 n d)
abbrev Tt : Fin 4096 → EReal := fun n => m ((c.tc : Thread nD τ).loc main_arg3) (ix1 n)

/-- The five input blocks at grid point `t`, entry by entry: rows `1024·(t/4) …` of the queries; key tile `t mod 4`
    of the keys, of their squared norms, of their negated reciprocal temperatures, and of the values. -/
theorem hq (t : Fin cfg0.N) (p : Fin 1024) (d : Fin 512) : iblk m c 0 t (ix2 p d) = Xq m c (row (t.val / 4) p) d :=
  Blocks.blk_q m c t p d
theorem hk (t : Fin cfg0.N) (j : Fin 1024) (d : Fin 512) : iblk m c 1 t (ix2 j d) = Pk m c (tile (t.val % 4) j) d :=
  (Blocks.blk_k m c t j d).trans (HostPre.k_arr m c _ d)
theorem hsq (t : Fin cfg0.N) (j : Fin 1024) : iblk m c 2 t (ix2 (0 : Fin 1) j) = sqp (Pk m c) (tile (t.val % 4) j) :=
  (Blocks.blk_sqp m c t j).trans (HostPre.sqp_arr m c _)
theorem hni (t : Fin cfg0.N) (j : Fin 1024) :
    iblk m c 3 t (ix2 (0 : Fin 1) j) = Ideal.div cm1 (et (Tt m c) (tile (t.val % 4) j)) :=
  (Blocks.blk_ninv m c t j).trans (HostPre.ninv_arr m c _)
theorem hv (t : Fin cfg0.N) (j : Fin 1024) (q : Fin 512) : iblk m c 4 t (ix2 j q) = Vv m c (tile (t.val % 4) j) q :=
  (Blocks.blk_v m c t j q).trans (HostPre.v_arr m c _ q)

/-- What the carried scratch holds after grid point `t`, at row `p` of the tile: the weighted values and the weights
    accumulated over key tiles `0 … t mod 4` for row `1024·(t/4) + p`, and that row's squared norm. -/
def Inv (t : Fin cfg0.N) (p : Fin 1024) : Prop :=
  (∀ q : Fin 512, (outsAt0 m c t.val t.isLt).2.1 (ix2 p q)
      = accK (Xq m c) (Pk m c) (Vv m c) (Tt m c) (row (t.val / 4) p) q (t.val % 4))
  ∧ (∀ u : Fin 1, (outsAt0 m c t.val t.isLt).2.2.1 (ix2 p u) = sumK (Xq m c) (Pk m c) (Tt m c) (row (t.val / 4) p) (t.val % 4))
  ∧ (∀ u : Fin 1, (outsAt0 m c t.val t.isLt).2.2.2 (ix2 p u) = sqn (Xq m c) (row (t.val / 4) p))

/-- At a row tile's first key tile. -/
theorem inv_first (t : Fin cfg0.N) (h0 : t.val % 4 = 0) (p : Fin 1024) : Inv m c t p := by
  have h1 : ¬t.val % 4 = 3 := by omega
  unfold Inv
  rw [outsAt0_A m c t h0 h1]
  dsimp only
  rw [scratch_acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), scratch_sum_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    scratch_sqn_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), h0]
  exact first_tile (Xq m c) (Pk m c) (Vv m c) (Tt m c) (row (t.val / 4) p) p (iblk m c 0 t) (iblk m c 1 t) (iblk m c 2 t) (iblk m c 3 t) (iblk m c 4 t)
    (fun d => hq m c t p d) (fun j d => by rw [hk m c t j d, h0]) (fun j => by rw [hsq m c t j, h0])
    (fun j => by rw [hni m c t j, h0]) (fun j q => by rw [hv m c t j q, h0])

/-- At a later key tile, from the point before. -/
theorem inv_next (t : Fin cfg0.N) (h0 : ¬t.val % 4 = 0)
    (ih : ∀ p, Inv m c ⟨t.val - 1, Nat.lt_of_le_of_lt (Nat.sub_le _ _) t.isLt⟩ p) (p : Fin 1024) : Inv m c t p := by
  have e1 : t.val / 4 = (t.val - 1) / 4 := by omega
  have e2 : t.val % 4 = (t.val - 1) % 4 + 1 := by omega
  obtain ⟨iha, ihs, ihn⟩ := ih p
  have hb0 : ∀ d, iblk m c 0 t (ix2 p d) = Xq m c (row ((t.val - 1) / 4) p) d := fun d => by rw [hq m c t p d, e1]
  have hb1 : ∀ j d, iblk m c 1 t (ix2 j d) = Pk m c (tile ((t.val - 1) % 4 + 1) j) d := fun j d => by rw [hk m c t j d, e2]
  have hb2 : ∀ j, iblk m c 2 t (ix2 (0 : Fin 1) j) = sqp (Pk m c) (tile ((t.val - 1) % 4 + 1) j) := fun j => by rw [hsq m c t j, e2]
  have hb3 : ∀ j, iblk m c 3 t (ix2 (0 : Fin 1) j) = Ideal.div cm1 (et (Tt m c) (tile ((t.val - 1) % 4 + 1) j)) := fun j => by
    rw [hni m c t j, e2]
  have hb4 : ∀ j q, iblk m c 4 t (ix2 j q) = Vv m c (tile ((t.val - 1) % 4 + 1) j) q := fun j q => by rw [hv m c t j q, e2]
  have step := next_tile (Xq m c) (Pk m c) (Vv m c) (Tt m c) (row ((t.val - 1) / 4) p) p (iblk m c 0 t) (iblk m c 1 t) (iblk m c 2 t) (iblk m c 3 t) (iblk m c 4 t) ((t.val - 1) % 4)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hb0 hb1 hb2 hb3 hb4 iha ihs ihn
  unfold Inv
  by_cases h1 : t.val % 4 = 3
  · rw [outsAt0_C m c t h0 h1]
    dsimp only
    rw [scratch_acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, scratch_sum_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine ⟨fun q => (step.1 q).trans ?_, fun u => (step.2 u).trans ?_, fun u => (ihn u).trans ?_⟩
    · rw [e1, e2]
    · rw [e1, e2]
    · rw [e1]
  · rw [outsAt0_B m c t h0 h1]
    dsimp only
    rw [scratch_acc_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, scratch_sum_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine ⟨fun q => (step.1 q).trans ?_, fun u => (step.2 u).trans ?_, fun u => (ihn u).trans ?_⟩
    · rw [e1, e2]
    · rw [e1, e2]
    · rw [e1]

/-- At every grid point, by induction on the point's position. -/
theorem inv_all : ∀ (n : ℕ) (t : Fin cfg0.N), t.val = n → ∀ p, Inv m c t p
  | 0, t, ht, p => inv_first m c t (by rw [ht]) p
  | n + 1, t, ht, p => by
    by_cases h0 : t.val % 4 = 0
    · exact inv_first m c t h0 p
    · exact inv_next m c t h0 (fun p' => inv_all n ⟨t.val - 1, Nat.lt_of_le_of_lt (Nat.sub_le _ _) t.isLt⟩ (by show t.val - 1 = n; omega) p') p

/-- The output block written at a row tile's last key tile: entry `(p, q)` is `outK` at row `1024·(t/4) + p`. -/
theorem out_block (t : Fin cfg0.N) (h3 : t.val % 4 = 3) (p : Fin 1024) (q : Fin 512) :
    (outsAt0 m c t.val t.isLt).1 (ix2 p q) = outK (Xq m c) (Pk m c) (Vv m c) (Tt m c) (row (t.val / 4) p) q := by
  have h0 : ¬t.val % 4 = 0 := by omega
  have h1 : t.val % 4 = 3 := h3
  obtain ⟨ha, hs, _⟩ := inv_all m c t.val t rfl p
  rw [outsAt0_C m c t h0 h1] at ha hs ⊢
  dsimp only at ha hs ⊢
  rw [scratch_acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at ha
  rw [scratch_sum_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at hs
  rw [out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [h3] at ha hs
  exact out_entry (Xq m c) (Pk m c) (Vv m c) (Tt m c) (row (t.val / 4) p) p _ _ ha hs q

end Cert.KernelIdeal.Accum
end
-- ==== Proof.Result.lean ====
/-
  The kernel program's result.  The output window's block at a row tile's last key tile is that tile's rows of
  `G` — entry `(r, q)` being `outK` of the flattened queries, the keys, the values and the temperatures —, these
  blocks cover the result array, so the array ends holding `G`; the program then regroups its 16384 rows as
  8 × 2048.
-/
import proofs.«153221_j18339510354285_2_alg».proof.Proof.Accum
import Idealize.ShloMosaic.Lib.Pipeline.Value
import Idealize.ShloMosaic.Lib.StableHlo.Run

noncomputable section

namespace Cert.KernelIdeal.Result

open Cert.KernelIdeal Cert.KernelIdeal.Gen Cert.KernelIdeal.Accum
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg) (c : Dev nD)

/-- The region's result array: entry `(r, q)` is `outK` of the queries, keys, values and temperatures. -/
def G : S16384x512.Idx → EReal := fun i =>
  outK (Xq m c) (Pk m c) (Vv m c) (Tt m c) ⟨(i 0).val, idx2_lt0 i⟩ ⟨(i 1).val, idx2_lt1 i⟩

/-- The output window's block index at grid point `t`: row tile `t / 4`, the one column tile. -/
theorem idx_o : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a write-back point (the last key tile of a row tile) writes back is its block of `G`. -/
theorem flushed_eq (t : Fin cfg0.N) (hf : (cfg0.win 5).flush t = true) :
    (dats m 0 c).flushed 5 t = ((cfg0.win 5).blk t).view.read (Elt Ideal) (G m c) := by
  have h3 : t.val % 4 = 3 := (flush0_5 t).mp hf
  have hN : cfg0.N = 64 := N_0
  have ht := t.isLt
  obtain ⟨i0, i1⟩ := idx_o t
  show (cfg0.win 5).cut (grid0.coords t) ((dats m 0 c).after 5 t) = _
  rw [after0_5]
  funext y
  obtain ⟨p, q, rfl⟩ : ∃ (p : Fin 1024) (q : Fin 512), y = ix2 p q := ⟨y 0, y 1, eq_ix2 y⟩
  show (outsAt0 m c t.val t.isLt).1 (ix2 p q) = G m c (((cfg0.win 5).blk t).view.emb (ix2 p q))
  rw [out_block m c t h3 p q]
  unfold G
  refine congrArg₂ (outK (Xq m c) (Pk m c) (Vv m c) (Tt m c)) (Fin.ext ?_) (Fin.ext ?_)
  · show (1024 * (t.val / 4) + p.val) % 16384 = win0_5.index t (0 : Fin 2) * 1024 + 1 * p.val
    rw [i0]; omega
  · show q.val = win0_5.index t (1 : Fin 2) * 512 + 1 * q.val
    rw [i1]; omega

/-- An index of the result array is in point `t`'s block iff each coordinate is in the block's range. -/
theorem mem_blk (t : Fin cfg0.N) (i : S16384x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v23).slice (win0_5.rect t)).set ↔ _
  rw [View.set_slice_whole, Rect.mem_set_unit]
  exact Iff.rfl

/-- Every row of the result lies in the block written back after its row tile's last key tile. -/
theorem cover (i : S16384x512.Idx) :
    ∃ t : Fin cfg0.N, (cfg0.win 5).flush t = true ∧ i ∈ ((cfg0.win 5).blk t).view.set := by
  have hN : cfg0.N = 64 := N_0
  have hi0 : (i 0).val < 16384 := idx2_lt0 i
  have hi1 : (i 1).val < 512 := idx2_lt1 i
  have hlt : 4 * ((i 0).val / 1024) + 3 < cfg0.N := by omega
  obtain ⟨e0, e1⟩ := idx_o ⟨4 * ((i 0).val / 1024) + 3, hlt⟩
  refine ⟨⟨4 * ((i 0).val / 1024) + 3, hlt⟩, (flush0_5 _).mpr (by show (4 * ((i 0).val / 1024) + 3) % 4 = 3; omega), ?_⟩
  rw [mem_blk]
  intro a
  match a with
  | ⟨0, _⟩ =>
    show win0_5.index ⟨4 * ((i 0).val / 1024) + 3, hlt⟩ (0 : Fin 2) * 1024 ≤ (i 0).val
      ∧ (i 0).val < win0_5.index ⟨4 * ((i 0).val / 1024) + 3, hlt⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_5.index ⟨4 * ((i 0).val / 1024) + 3, hlt⟩ (1 : Fin 2) * 512 ≤ (i 1).val
      ∧ (i 1).val < win0_5.index ⟨4 * ((i 0).val / 1024) + 3, hlt⟩ (1 : Fin 2) * 512 + 512
    rw [e1]
    omega

/-- So the result array ends holding `G`. -/
theorem final : (dats m 0 c).arrAt 5 cfg0.N = G m c :=
  (dats m 0 c).arrAt_eq_of_cover 5 (G m c) (flushed_eq m c) (cover)

/-- The program's result: the region's result array with its rows regrouped as 8 × 2048. -/
theorem tail_eq : Pipeline.afterTail₀ cfgs (dats m) 0 (V0 m) [hostOps1] c main_v24
    = shapeCast S8x2048x512 (G m c) shapeCasts_S16384x512_S8x2048x512 := by
  unfold Pipeline.afterTail₀
  show StableHlo.after hostOps1 _ (Proc.devRef .tc main_v24) = _
  after_results
  have e : Pipeline.withArrays (cfgs 0).spec c (V0 m c) (fun w => (dats m 0 c).arrAt w (cfgs 0).N)
      (Proc.tc.devRef main_v23) = G m c :=
    (Pipeline.withArrays_arr spec0 launch0.win.arr_inj c _ _ 5).trans (final m c)
  rw [e]
  rfl

/-- The kernel program's run, read: its result is `G` with the rows regrouped; its arguments end unchanged. -/
theorem run : θ_run defs (onTc (τ := τ) (main (F := Ideal))) ⟨m, fun _ => 0, ρ⟩ fun r => ∀ c : Dev nD,
      r.2.mem ((c.tc : Thread nD τ).loc main_v24) = shapeCast S8x2048x512 (G m c) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result
end
-- ==== Proof.RefValue.lean ====
/-
  The reference program read at an index: its result at row `r` and feature `q` is `outR` of the
  reshaped queries, the keys, the values and the temperatures.
-/
import proofs.«153221_j18339510354285_2_alg».proof.Proof.Gen.ReferenceIdeal.Read
import proofs.«153221_j18339510354285_2_alg».proof.Proof.Spec

noncomputable section

namespace Cert.Attn.Ref

open Cert.ReferenceIdeal Cert.ReferenceIdeal.Gen Cert.ReferenceIdeal.Read Idealize.ShloMosaic Idealize.ShloMosaic.ValueIdx

/-! ## The index maps of the layout operations, at coordinates -/

theorem idx_v12 (r : Fin 16384) (k : Fin 512) : idx_main_v12 (ix1 r) k = ix2 r k :=
  funext fun a => Fin.ext (by match a with | ⟨0, _⟩ => rfl | ⟨1, _⟩ => rfl)
theorem idx_v13 (r : Fin 16384) (z : Fin 1) : idx_main_v13 (ix2 r z) = ix1 r :=
  funext fun a => Fin.ext (by match a with | ⟨0, _⟩ => rfl)
theorem idx_v15 (n : Fin 4096) (k : Fin 512) : idx_main_v15 (ix1 n) k = ix2 n k :=
  funext fun a => Fin.ext (by match a with | ⟨0, _⟩ => rfl | ⟨1, _⟩ => rfl)
theorem idx_v16 (z : Fin 1) (n : Fin 4096) : idx_main_v16 (ix2 z n) = ix1 n :=
  funext fun a => Fin.ext (by match a with | ⟨0, _⟩ => rfl)
theorem idx_v17 (r : Fin 16384) (n : Fin 4096) : idx_main_v17 (ix2 r n) = ix2 r (0 : Fin 1) :=
  funext fun a => Fin.ext (by match a with | ⟨0, _⟩ => rfl | ⟨1, _⟩ => rfl)
theorem idx_v18 (r : Fin 16384) (n : Fin 4096) : idx_main_v18 (ix2 r n) = ix2 (0 : Fin 1) n :=
  funext fun a => Fin.ext (by match a with | ⟨0, _⟩ => rfl | ⟨1, _⟩ => rfl)
theorem idx_v20 (k : Fin 512) (n : Fin 4096) : idx_main_v20 (ix2 k n) = ix2 n k :=
  funext fun a => Fin.ext (by match a with | ⟨0, _⟩ => rfl | ⟨1, _⟩ => rfl)
theorem lidx_v21 (r : Fin 16384) (n : Fin 4096) (k : Fin 512) : lidx_main_v21 (ix2 r n) k = ix2 r k :=
  funext fun a => Fin.ext (by match a with | ⟨0, _⟩ => rfl | ⟨1, _⟩ => rfl)
theorem ridx_v21 (r : Fin 16384) (n : Fin 4096) (k : Fin 512) : ridx_main_v21 (ix2 r n) k = ix2 k n :=
  funext fun a => Fin.ext (by match a with | ⟨0, _⟩ => rfl | ⟨1, _⟩ => rfl)
theorem idx_v33 (z : Fin 1) (n : Fin 4096) : idx_main_v33 (ix2 z n) = ix1 n :=
  funext fun a => Fin.ext (by match a with | ⟨0, _⟩ => rfl)
theorem idx_v34 (r : Fin 16384) (n : Fin 4096) : idx_main_v34 (ix2 r n) = ix2 (0 : Fin 1) n :=
  funext fun a => Fin.ext (by match a with | ⟨0, _⟩ => rfl | ⟨1, _⟩ => rfl)
theorem idx_v37 (r : Fin 16384) (k : Fin 4096) : idx_main_v37 (ix1 r) k = ix2 r k :=
  funext fun a => Fin.ext (by match a with | ⟨0, _⟩ => rfl | ⟨1, _⟩ => rfl)
theorem idx_v38 (r : Fin 16384) (z : Fin 1) : idx_main_v38 (ix2 r z) = ix1 r :=
  funext fun a => Fin.ext (by match a with | ⟨0, _⟩ => rfl)
theorem idx_v41 (r : Fin 16384) (n : Fin 4096) : idx_main_v41 (ix2 r n) = ix2 r (0 : Fin 1) :=
  funext fun a => Fin.ext (by match a with | ⟨0, _⟩ => rfl | ⟨1, _⟩ => rfl)
theorem lidx_v43 (r : Fin 16384) (q : Fin 512) (k : Fin 4096) : lidx_main_v43 (ix2 r q) k = ix2 r k :=
  funext fun a => Fin.ext (by match a with | ⟨0, _⟩ => rfl | ⟨1, _⟩ => rfl)
theorem ridx_v43 (r : Fin 16384) (q : Fin 512) (k : Fin 4096) : ridx_main_v43 (ix2 r q) k = ix2 k q :=
  funext fun a => Fin.ext (by match a with | ⟨0, _⟩ => rfl | ⟨1, _⟩ => rfl)

/-! ## The intermediates, one by one -/

/-- The zero word denotes zero. -/
theorem ofBits_zero : FloatOps.ofBits (F := Ideal) .f32 0x00000000#32 = (0 : EReal) := Ideal.ofBits_zero_f32

/-- The attention scale, the same at every key. -/
theorem scale_eq (n : Fin 4096) : val_main_v9 (F := Ideal) (ix1 n) = Cert.Attn.scale := by
  rw [val_main_v9_apply, val_main_v8_apply, val_main_cst_3_apply, val_main_v7_apply, val_main_v6_apply,
    val_main_cst_2_apply, val_main_v5_apply, val_main_v4_apply, val_main_cst_1_apply, val_main_v3_apply,
    val_main_v2_apply, val_main_v1_apply, val_main_cst_0_apply, val_main_v0_apply, val_main_cst_apply, ofBits_zero]
  rfl

section

variable (x0 : (⟨Cert.ReferenceIdeal.S8x2048x512, .f32⟩ : BufTy).Contents (Elt Ideal))
  (x1 x2 : (⟨Cert.ReferenceIdeal.S4096x512, .f32⟩ : BufTy).Contents (Elt Ideal))
  (x3 : (⟨Cert.ReferenceIdeal.S4096, .f32⟩ : BufTy).Contents (Elt Ideal))

/-- The effective temperature of key `n`. -/
theorem et_eq (n : Fin 4096) :
    val_main_v31 (F := Ideal) x3 (ix1 n) = Cert.Attn.et (fun n => x3 (ix1 n)) n := by
  rw [val_main_v31_apply, val_main_v30_apply, val_main_v28_apply, val_main_v29_apply, val_main_cst_8_apply, scale_eq]
  rfl

/-- The squared norm of query row `r`. -/
theorem sqn_eq (r : Fin 16384) :
    val_main_v12 (F := Ideal) x0 (ix1 r) = Cert.Attn.sqn (fun r d => val_main_v10 x0 (ix2 r d)) r := by
  rw [val_main_v12_apply, val_main_cst_4_apply, ofBits_zero, zero_add]
  refine Finset.sum_congr rfl fun k _ => ?_
  rw [idx_v12, val_main_v11_apply]
  rfl

/-- The squared norm of key `n`. -/
theorem sqp_eq (n : Fin 4096) :
    val_main_v15 (F := Ideal) x1 (ix1 n) = Cert.Attn.sqp (fun n d => x1 (ix2 n d)) n := by
  rw [val_main_v15_apply, val_main_cst_5_apply, ofBits_zero, zero_add]
  refine Finset.sum_congr rfl fun k _ => ?_
  rw [idx_v15, val_main_v14_apply]
  rfl

/-- The inner product of query row `r` with key `n`. -/
theorem dot_eq (r : Fin 16384) (n : Fin 4096) :
    val_main_v21 (F := Ideal) x0 x1 (ix2 r n)
      = Cert.Attn.dot (fun r d => val_main_v10 x0 (ix2 r d)) (fun n d => x1 (ix2 n d)) r n := by
  rw [val_main_v21_apply]
  refine Finset.sum_congr rfl fun k _ => ?_
  rw [lidx_v21, ridx_v21, val_main_v20_apply, idx_v20]

/-- The distance from row `r` to key `n`. -/
theorem dist_eq (r : Fin 16384) (n : Fin 4096) :
    val_main_v27 (F := Ideal) x0 x1 (ix2 r n)
      = Cert.Attn.dist (fun r d => val_main_v10 x0 (ix2 r d)) (fun n d => x1 (ix2 n d)) r n := by
  rw [val_main_v27_apply, val_main_v26_apply, val_main_v25_apply, val_main_cst_7_apply, ofBits_zero,
    val_main_v24_apply, val_main_v19_apply, val_main_v17_apply, idx_v17, val_main_v13_apply, idx_v13, sqn_eq,
    val_main_v18_apply, idx_v18, val_main_v16_apply, idx_v16, sqp_eq, val_main_v23_apply, val_main_v22_apply,
    val_main_cst_6_apply, dot_eq]
  rfl

/-- The weight of key `n` in row `r`. -/
theorem wR_eq (r : Fin 16384) (n : Fin 4096) :
    val_main_v36 (F := Ideal) x0 x1 x3 (ix2 r n)
      = Cert.Attn.wR (fun r d => val_main_v10 x0 (ix2 r d)) (fun n d => x1 (ix2 n d)) (fun n => x3 (ix1 n)) r n := by
  rw [val_main_v36_apply, val_main_v35_apply, val_main_v32_apply, dist_eq, val_main_v34_apply, idx_v34,
    val_main_v33_apply, idx_v33, et_eq]
  rfl

/-- The total weight of row `r`, plus the guard. -/
theorem total_eq (r : Fin 16384) :
    val_main_v40 (F := Ideal) x0 x1 x3 (ix2 r (0 : Fin 1))
      = (∑ n' : Fin 4096, Cert.Attn.wR (fun r d => val_main_v10 x0 (ix2 r d)) (fun n d => x1 (ix2 n d))
          (fun n => x3 (ix1 n)) r n') + Cert.Attn.eps := by
  rw [val_main_v40_apply, val_main_v38_apply, idx_v38, val_main_v37_apply, val_main_cst_9_apply, ofBits_zero, zero_add,
    val_main_v39_apply, val_main_cst_10_apply]
  simp only [idx_v37, wR_eq]
  rfl

/-- The reference's result at row `r` and feature `q`. -/
theorem ref_value (r : Fin 16384) (q : Fin 512) :
    val_main_v43 x0 x1 x2 x3 (ix2 r q)
      = Cert.Attn.outR (fun r d => val_main_v10 x0 (ix2 r d)) (fun n d => x1 (ix2 n d)) (fun n d => x2 (ix2 n d))
          (fun n => x3 (ix1 n)) r q := by
  rw [val_main_v43_apply]
  refine Finset.sum_congr rfl fun k _ => ?_
  rw [lidx_v43, ridx_v43, val_main_v42_apply, wR_eq, val_main_v41_apply, idx_v41, total_eq]
  rfl

end

end Cert.Attn.Ref

end
-- ==== Proof.Bridge.lean ====
/-
  The algebraic bridge between the two arrangements of the attention: on real inputs every
  intermediate quantity is a real, the two weights coincide, the four tile sums add up to the sum
  over all keys, and dividing the accumulated sum once equals normalising every weight first.
-/
import proofs.«153221_j18339510354285_2_alg».proof.Proof.Spec
import Mathlib

noncomputable section

namespace Cert.Attn

open Idealize.ShloMosaic

/-! ### The literals -/

theorem c005_eq : c005 = ((13421773 / 268435456 : ℝ) : EReal) := by
  simp [c005, Ideal.ofBits, Ideal.ieee, -EReal.coe_mul]; norm_num

theorem c01_eq : c01 = ((13421773 / 134217728 : ℝ) : EReal) := by
  simp [c01, Ideal.ofBits, Ideal.ieee, -EReal.coe_mul]; norm_num

theorem c1_eq : c1 = ((1 : ℝ) : EReal) := by
  simp [c1, Ideal.ofBits, Ideal.ieee, -EReal.coe_mul]; norm_num

theorem cm1_eq : cm1 = ((-1 : ℝ) : EReal) := by
  simp [cm1, Ideal.ofBits, Ideal.ieee, -EReal.coe_mul]; norm_num

theorem c2_eq : c2 = ((2 : ℝ) : EReal) := by
  simp [c2, Ideal.ofBits, Ideal.ieee, -EReal.coe_mul]; norm_num

theorem eps_eq : ∃ e : ℝ, 0 < e ∧ eps = (e : EReal) := by
  refine ⟨11258999 * (2 : ℝ) ^ (-50 : ℤ), by positivity, ?_⟩
  simp [eps, Ideal.ofBits, Ideal.ieee, -EReal.coe_mul]

/-! ### The four tiles partition the keys -/

/-- Key `1024 k + j` from its tile `k` and offset `j`. -/
def tileEquiv : Fin 4 × Fin 1024 ≃ Fin 4096 where
  toFun p := ⟨1024 * p.1.val + p.2.val, by have := p.1.isLt; have := p.2.isLt; omega⟩
  invFun n := (⟨n.val / 1024, by have := n.isLt; omega⟩, ⟨n.val % 1024, Nat.mod_lt _ (by norm_num)⟩)
  left_inv := by
    rintro ⟨⟨k, hk⟩, ⟨j, hj⟩⟩
    simp only [Prod.mk.injEq, Fin.mk.injEq]
    constructor <;> omega
  right_inv := by
    rintro ⟨n, hn⟩
    simp only [Fin.mk.injEq]
    omega

theorem tileEquiv_apply (k : Fin 4) (j : Fin 1024) : tileEquiv (k, j) = tile k.val j := by
  apply Fin.ext
  have := k.isLt; have := j.isLt
  simp only [tileEquiv, tile, Equiv.coe_fn_mk]
  omega

/-- A sum over the 4096 keys is the sum of the four tile sums, added in tile order. -/
theorem sum_tiles {M : Type*} [AddCommMonoid M] (f : Fin 4096 → M) :
    (∑ j : Fin 1024, f (tile 0 j)) + (∑ j : Fin 1024, f (tile 1 j)) + (∑ j : Fin 1024, f (tile 2 j))
      + (∑ j : Fin 1024, f (tile 3 j)) = ∑ n : Fin 4096, f n := by
  rw [← Fintype.sum_equiv tileEquiv (fun p => f (tileEquiv p)) f (fun _ => rfl),
    Fintype.sum_prod_type, Fin.sum_univ_four]
  simp only [tileEquiv_apply]
  rfl

/-! ### Real sums inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The embedding of the reals commutes with `max`. -/
theorem coe_max (a b : ℝ) : ((max a b : ℝ) : EReal) = max (a : EReal) (b : EReal) :=
  EReal.coe_strictMono.monotone.map_max

/-! ### The scale and the temperatures -/

/-- At age zero the scale is the literal 0.05: `exp 0 = 1`, so the second summand vanishes. -/
theorem scale_eq : scale = c005 := by
  have h0 : Ideal.exp (cm002 * 0) = 1 := by
    rw [mul_zero, ← EReal.coe_zero, Ideal.exp_coe, Real.exp_zero, EReal.coe_one]
  have h1 : c1 - 1 = 0 := by
    rw [c1_eq, ← EReal.coe_one, ← EReal.coe_sub, sub_self, EReal.coe_zero]
  rw [scale, h0, h1, mul_zero, add_zero]

section Real

variable (x : Fin 16384 → Fin 512 → ℝ) (p v : Fin 4096 → Fin 512 → ℝ) (t : Fin 4096 → ℝ)

/-- The effective temperature of key `n`, as a real. -/
def etR (n : Fin 4096) : ℝ := (|t n| + 13421773 / 134217728) * (13421773 / 268435456)

theorem etR_pos (n : Fin 4096) : 0 < etR t n := by
  unfold etR; positivity

theorem et_eq (n : Fin 4096) : et (fun n => (t n : EReal)) n = (etR t n : EReal) := by
  have habs : max ((t n : ℝ) : EReal) (-((t n : ℝ) : EReal)) = ((|t n| : ℝ) : EReal) := by
    rw [← EReal.coe_neg, ← coe_max]; rfl
  rw [et, scale_eq, c005_eq, c01_eq, habs, ← EReal.coe_add, ← EReal.coe_mul]; rfl

/-- The distance from row `r` to key `n`, as a real. -/
def distR (r : Fin 16384) (n : Fin 4096) : ℝ :=
  Real.sqrt (max ((∑ d : Fin 512, x r d * x r d) + (∑ d : Fin 512, p n d * p n d)
    - 2 * ∑ d : Fin 512, x r d * p n d) 0)

theorem dist_eq (r : Fin 16384) (n : Fin 4096) :
    dist (fun r d => (x r d : EReal)) (fun n d => (p n d : EReal)) r n = (distR x p r n : EReal) := by
  simp only [dist, sqn, sqp, dot, c2_eq, ← EReal.coe_mul, ← coe_sum, ← EReal.coe_add,
    ← EReal.coe_sub]
  rw [← EReal.coe_zero, ← coe_max, Ideal.sqrt_coe, if_neg (not_lt.mpr (le_max_right _ _))]
  rfl

/-- The common weight of the two programs, as a real: `exp(−dist / et)`. -/
def wReal (r : Fin 16384) (n : Fin 4096) : ℝ := Real.exp (-(distR x p r n) * (1 / etR t n))

theorem wReal_pos (r : Fin 16384) (n : Fin 4096) : 0 < wReal x p t r n := Real.exp_pos _

theorem wR_eq (r : Fin 16384) (n : Fin 4096) :
    wR (fun r d => (x r d : EReal)) (fun n d => (p n d : EReal)) (fun n => (t n : EReal)) r n
      = (wReal x p t r n : EReal) := by
  rw [wR, dist_eq, et_eq, ← EReal.coe_neg, Ideal.div_coe (etR_pos t n).ne', ← EReal.coe_mul,
    Ideal.exp_coe]
  rfl

theorem wK_eq (r : Fin 16384) (n : Fin 4096) :
    wK (fun r d => (x r d : EReal)) (fun n d => (p n d : EReal)) (fun n => (t n : EReal)) r n
      = (wReal x p t r n : EReal) := by
  rw [wK, dist_eq, et_eq, cm1_eq, Ideal.div_coe (etR_pos t n).ne', ← EReal.coe_mul,
    ← EReal.coe_mul, Ideal.exp_coe, wReal]
  congr 2
  ring

/-- The two arrangements agree on real inputs. -/
theorem outK_eq_outR_real (r : Fin 16384) (q : Fin 512) :
    outK (fun r d => (x r d : EReal)) (fun n d => (p n d : EReal)) (fun n d => (v n d : EReal))
        (fun n => (t n : EReal)) r q
      = outR (fun r d => (x r d : EReal)) (fun n d => (p n d : EReal)) (fun n d => (v n d : EReal))
        (fun n => (t n : EReal)) r q := by
  obtain ⟨e, he, hE⟩ := eps_eq
  have hS : sumK (fun r d => (x r d : EReal)) (fun n d => (p n d : EReal)) (fun n => (t n : EReal)) r 3
      = ∑ n : Fin 4096, (wReal x p t r n : EReal) := by
    simp only [sumK, wK_eq]
    exact sum_tiles (fun n => (wReal x p t r n : EReal))
  have hA : accK (fun r d => (x r d : EReal)) (fun n d => (p n d : EReal)) (fun n d => (v n d : EReal))
        (fun n => (t n : EReal)) r q 3
      = ∑ n : Fin 4096, (wReal x p t r n : EReal) * (v n q : EReal) := by
    simp only [accK, wK_eq]
    exact sum_tiles (fun n => (wReal x p t r n : EReal) * (v n q : EReal))
  have hpos : 0 < (∑ n : Fin 4096, wReal x p t r n) + e :=
    add_pos_of_nonneg_of_pos (Finset.sum_nonneg (fun n _ => (wReal_pos x p t r n).le)) he
  rw [outK, outR, hS, hA]
  simp only [wR_eq, hE, c1_eq, ← coe_sum, ← EReal.coe_add, Ideal.div_coe hpos.ne', ← EReal.coe_mul]
  congr 1
  rw [Finset.sum_mul]
  refine Finset.sum_congr rfl (fun n _ => ?_)
  ring

end Real

/-- The two arrangements agree whenever every input is a real. -/
theorem outK_eq_outR (X : Fin 16384 → Fin 512 → EReal) (P V : Fin 4096 → Fin 512 → EReal)
    (T : Fin 4096 → EReal)
    (hX : ∀ r d, ∃ a : ℝ, X r d = (a : EReal)) (hP : ∀ n d, ∃ a : ℝ, P n d = (a : EReal))
    (hV : ∀ n d, ∃ a : ℝ, V n d = (a : EReal)) (hT : ∀ n, ∃ a : ℝ, T n = (a : EReal))
    (r : Fin 16384) (q : Fin 512) : outK X P V T r q = outR X P V T r q := by
  choose x hx using hX
  choose p hp using hP
  choose v hv using hV
  choose t ht using hT
  obtain rfl : X = fun r d => (x r d : EReal) := funext fun r => funext fun d => hx r d
  obtain rfl : P = fun n d => (p n d : EReal) := funext fun n => funext fun d => hp n d
  obtain rfl : V = fun n d => (v n d : EReal) := funext fun n => funext fun d => hv n d
  obtain rfl : T = fun n => (t n : EReal) := funext ht
  exact outK_eq_outR_real x p v t r q

end Cert.Attn

end
-- ==== Proof.Finite.lean ====
/-
  The precondition read back: when the printed predicate that every entry of the four inputs has an
  absolute value below +∞ holds, every entry of every input is a real number.
-/
import proofs.«153221_j18339510354285_2_alg».proof.Pre_finite_inputs
import Idealize.ShloMosaic.Lib.ReduceAll
import Idealize.ShloMosaic.Lib.ValueIdx
import Idealize.ShloMosaic.PureOps.Ideal.Laws

namespace Cert.Attn.Finite

open Idealize.ShloMosaic

/-- The word `0x7F800000` denotes `+∞`. -/
theorem ofBits_inf : Ideal.ofBits .f32 0x7F800000#32 = (⊤ : EReal) := by
  simp [Ideal.ofBits, Ideal.ieee]

/-- An extended real whose absolute value `max x (-x)` is below `+∞` is a real. -/
theorem real_of_abs_lt_top (x : EReal) (h : max x (-x) < (⊤ : EReal)) : ∃ v : ℝ, x = (v : EReal) := by
  induction x using EReal.rec with
  | bot => simp at h
  | coe v => exact ⟨v, rfl⟩
  | top => simp at h

/-- The element fact: the comparison `|x| < +∞` answering 1 makes `x` a real. -/
theorem real_of_cmp (x : EReal)
    (h : Ideal.cmp .olt (max x (-x)) (Ideal.ofBits .f32 0x7F800000#32) = 1#1) : ∃ v : ℝ, x = (v : EReal) := by
  rw [ofBits_inf] at h
  apply real_of_abs_lt_top
  by_contra hn
  simp [Ideal.cmp, hn] at h

instance : Subsingleton Cert.Pre_finite_inputs.S_.Idx := ⟨fun a b => funext fun d => d.elim0⟩

theorem finite_of_pre [Cert.Pre_finite_inputs.Facts] (a0 : FVec Ideal Cert.Pre_finite_inputs.S8x2048x512 .f32)
    (a1 a2 : FVec Ideal Cert.Pre_finite_inputs.S4096x512 .f32) (a3 : FVec Ideal Cert.Pre_finite_inputs.S4096 .f32)
    (h : Cert.Pre_finite_inputs.fn (F := Ideal) a0 a1 a2 a3 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h00, h1⟩ := IntOp.andi_eq_one.1 h01
  refine ⟨fun i => ?_, fun i => ?_, fun i => ?_, fun i => ?_⟩
  · exact real_of_cmp (a0 i) (Host.reduce_andi_all _ _ _ _ _ h00 i)
  · exact real_of_cmp (a1 i) (Host.reduce_andi_all _ _ _ _ _ h1 i)
  · exact real_of_cmp (a2 i) (Host.reduce_andi_all _ _ _ _ _ h2 i)
  · exact real_of_cmp (a3 i) (Host.reduce_andi_all _ _ _ _ _ h3 i)

end Cert.Attn.Finite
-- ==== Proof.lean ====
/-
  The certificate's claims.  Both idealized programs compute, for each of the 16384 flattened query rows, a
  distance-weighted average of the 4096 value rows: the weight of key `n` is `exp(−dist / et n)` with `dist` the
  Euclidean distance (expanded square, clamped at zero) and `et n = (|T n| + 0.1) · scale`.  The kernel takes the
  reciprocal temperature first, accumulates weights and weighted values over four key tiles, and divides once;
  the reference divides each weight by the row total and then contracts with the values.  With finite inputs
  every intermediate is a real number, the temperatures and the totals are positive, and the two arrangements
  agree by distributing the final reciprocal over the sum.  The frames are the generated ones; the ideal pass
  rewrote nothing.
-/
import proofs.«153221_j18339510354285_2_alg».proof.Defs
import proofs.«153221_j18339510354285_2_alg».proof.Proof.Gen.Kernel
import proofs.«153221_j18339510354285_2_alg».proof.Proof.Gen.Kernel.Frame
import proofs.«153221_j18339510354285_2_alg».proof.Proof.Gen.KernelIdeal
import proofs.«153221_j18339510354285_2_alg».proof.Proof.Gen.KernelIdeal.Frame
import proofs.«153221_j18339510354285_2_alg».proof.Proof.Gen.ReferenceIdeal
import proofs.«153221_j18339510354285_2_alg».proof.Proof.Gen.ReferenceIdeal.Read
import proofs.«153221_j18339510354285_2_alg».proof.Proof.Gen.Pre_finite_inputs
import proofs.«153221_j18339510354285_2_alg».proof.Proof.Result
import proofs.«153221_j18339510354285_2_alg».proof.Proof.RefValue
import proofs.«153221_j18339510354285_2_alg».proof.Proof.Bridge
import proofs.«153221_j18339510354285_2_alg».proof.Proof.Finite
import Idealize.ShloMosaic.Adequacy
import Idealize.ShloMosaic.Init

noncomputable section

namespace Cert.Proof

open Idealize.ShloMosaic Idealize.SL.Sem Idealize.ShloMosaic.TcCoe Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With finite inputs and memories agreeing on the arguments, the reference's contraction result is the
    kernel region's result array, entry by entry: `outR = outK` on real inputs. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Read.val_main_v43 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.Result.G m c := by
  obtain ⟨f0, f1, f2, f3⟩ := Cert.Attn.Finite.finite_of_pre _ _ _ _ (hpre c)
  rw [h0, h1, h2, h3]
  funext i
  obtain ⟨r, q, rfl⟩ : ∃ (r : Fin 16384) (q : Fin 512), i = ix2 r q := ⟨i 0, i 1, eq_ix2 i⟩
  rw [Cert.Attn.Ref.ref_value]
  have hX : (fun (r : Fin 16384) (d : Fin 512) => Cert.ReferenceIdeal.Read.val_main_v10 (F := Ideal)
      (m ((c.tc : Thread Cert.KernelIdeal.nD Cert.KernelIdeal.τ).loc Cert.KernelIdeal.main_arg0)) (ix2 r d))
      = Cert.KernelIdeal.Accum.Xq m c := by
    funext r d
    show _ = Cert.KernelIdeal.Gen.V m c Cert.KernelIdeal.main_v22 (ix2 r d)
    rw [Cert.KernelIdeal.HostPre.q_arr]
    rfl
  rw [hX]
  have hXf : ∀ r d, ∃ a : ℝ, Cert.KernelIdeal.Accum.Xq m c r d = (a : EReal) := fun r d => by
    rw [← hX]
    show ∃ a : ℝ, Cert.ReferenceIdeal.Read.val_main_v10 (F := Ideal) _ (ix2 r d) = (a : EReal)
    rw [Cert.ReferenceIdeal.Read.val_main_v10_apply]
    exact f0 _
  exact (Cert.Attn.outK_eq_outR (Cert.KernelIdeal.Accum.Xq m c) (Cert.KernelIdeal.Accum.Pk m c) (Cert.KernelIdeal.Accum.Vv m c)
    (Cert.KernelIdeal.Accum.Tt m c) hXf (fun n d => f1 _) (fun n d => f2 _) (fun n => f3 _) r q).symm

theorem algebraic : Cert.algebraic_KernelIdeal_ReferenceIdeal := by
  intro m ρ m' ρ' hpre hag
  refine ⟨fun c => shapeCast Cert.KernelIdeal.S8x2048x512 (Cert.KernelIdeal.Result.G m c)
    Cert.KernelIdeal.Facts₀.shapeCasts_S16384x512_S8x2048x512, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  unfold Cert.ReferenceIdeal.Read.val_main_v44
  rw [result_eq m m' c hpre (hag c).1 (hag c).2.1 (hag c).2.2.1 (hag c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
